-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3x3 : Shape := ⟨3, ![262144, 3, 3]⟩
abbrev S262144 : Shape := ⟨1, ![262144]⟩
abbrev S4194304 : Shape := ⟨1, ![4194304]⟩
abbrev S_ : Shape := ⟨0, ![]⟩

class Facts : Prop where
  bcast_S_S262144x3x3 : S_.BroadcastsInDim S262144x3x3 (![] : Fin 0 → Fin S262144x3x3.rank)
  reducesTo_S262144x3x3_S_d0_1_2 : S262144x3x3.ReducesTo [0, 1, 2] S_
  h_S_ : 0 < S_.numel
  bcast_S_S262144 : S_.BroadcastsInDim S262144 (![] : Fin 0 → Fin S262144.rank)
  reducesTo_S262144_S_d0 : S262144.ReducesTo [0] S_

variable [Facts]

def fn {F : FTy → Type} [FloatOps F] (main_arg0 : FVec F S262144x3x3 .f32) (main_arg1 : FVec F S262144x3x3 .f32) (main_arg2 : FVec F S262144 .f32) (main_arg3 : IVec S4194304 32) (main_arg4 : IVec S4194304 32) : IVec S_ 1 :=
  let main_v0 : FVec F S262144x3x3 .f32 := Host.absf main_arg0
  let main_cst : FVec F S_ .f32 := constant S_ .f32 0x7F800000#32
  let main_v1 : FVec F S262144x3x3 .f32 := broadcastInDim S262144x3x3 ![] bcast_S_S262144x3x3 main_cst
  let main_v2 : IVec S262144x3x3 1 := cmpf .olt main_v0 main_v1
  let main_c : IVec S_ 1 := constantI S_ 1 1#1
  let main_v3 : IVec S_ 1 := (fun x v => Host.reduce IntOp.andi x v reducesTo_S262144x3x3_S_d0_1_2 h_S_) main_v2 main_c
  let main_v4 : FVec F S262144x3x3 .f32 := Host.absf main_arg1
  let main_cst_0 : FVec F S_ .f32 := constant S_ .f32 0x7F800000#32
  let main_v5 : FVec F S262144x3x3 .f32 := broadcastInDim S262144x3x3 ![] bcast_S_S262144x3x3 main_cst_0
  let main_v6 : IVec S262144x3x3 1 := cmpf .olt main_v4 main_v5
  let main_c_1 : IVec S_ 1 := constantI S_ 1 1#1
  let main_v7 : IVec S_ 1 := (fun x v => Host.reduce IntOp.andi x v reducesTo_S262144x3x3_S_d0_1_2 h_S_) main_v6 main_c_1
  let main_v8 : IVec S_ 1 := andi main_v3 main_v7
  let main_v9 : FVec F S262144 .f32 := Host.absf main_arg2
  let main_cst_2 : FVec F S_ .f32 := constant S_ .f32 0x7F800000#32
  let main_v10 : FVec F S262144 .f32 := broadcastInDim S262144 ![] bcast_S_S262144 main_cst_2
  let main_v11 : IVec S262144 1 := cmpf .olt main_v9 main_v10
  let main_c_3 : IVec S_ 1 := constantI S_ 1 1#1
  let main_v12 : IVec S_ 1 := (fun x v => Host.reduce IntOp.andi x v reducesTo_S262144_S_d0 h_S_) main_v11 main_c_3
  let main_v13 : IVec S_ 1 := andi main_v8 main_v12
  main_v13
-- ==== Kernel.lean ====
abbrev S262144x3x3 : Shape := ⟨3, ![262144, 3, 3]⟩
abbrev S262144 : Shape := ⟨1, ![262144]⟩
abbrev S4194304 : Shape := ⟨1, ![4194304]⟩
abbrev S262144x1x3 : Shape := ⟨3, ![262144, 1, 3]⟩
abbrev S262144x3 : Shape := ⟨2, ![262144, 3]⟩
abbrev S3x262144 : Shape := ⟨2, ![3, 262144]⟩
abbrev S6x262144 : Shape := ⟨2, ![6, 262144]⟩
abbrev S_ : Shape := ⟨0, ![]⟩
abbrev S4194304x1 : Shape := ⟨2, ![4194304, 1]⟩
abbrev S6x4194304 : Shape := ⟨2, ![6, 4194304]⟩
abbrev S3x4194304 : Shape := ⟨2, ![3, 4194304]⟩
abbrev S1x4194304 : Shape := ⟨2, ![1, 4194304]⟩
abbrev S1x1 : Shape := ⟨2, ![1, 1]⟩
abbrev S1x262144 : Shape := ⟨2, ![1, 262144]⟩
abbrev S1 : Shape := ⟨1, ![1]⟩

abbrev nBuf : Space → Nat
  | .hbm => 47
  | .vmem => 4
  | .smem => 0
  | _ => 0

abbrev bufTy : (tb : Table) → Fin (tcTables nBuf tb) → BufTy
  | .hbm, ⟨0, _⟩ => ⟨S262144x3x3, .f32⟩
  | .hbm, ⟨1, _⟩ => ⟨S262144x3x3, .f32⟩
  | .hbm, ⟨2, _⟩ => ⟨S262144, .f32⟩
  | .hbm, ⟨3, _⟩ => ⟨S4194304, .i32⟩
  | .hbm, ⟨4, _⟩ => ⟨S4194304, .i32⟩
  | .hbm, ⟨5, _⟩ => ⟨S262144x1x3, .f32⟩
  | .hbm, ⟨6, _⟩ => ⟨S262144x3, .f32⟩
  | .hbm, ⟨7, _⟩ => ⟨S262144x1x3, .f32⟩
  | .hbm, ⟨8, _⟩ => ⟨S262144x3, .f32⟩
  | .hbm, ⟨9, _⟩ => ⟨S3x262144, .f32⟩
  | .hbm, ⟨10, _⟩ => ⟨S3x262144, .f32⟩
  | .hbm, ⟨11, _⟩ => ⟨S6x262144, .f32⟩
  | .hbm, ⟨12, _⟩ => ⟨S_, .i32⟩
  | .hbm, ⟨13, _⟩ => ⟨S4194304, .i32⟩
  | .hbm, ⟨14, _⟩ => ⟨S4194304, .i1⟩
  | .hbm, ⟨15, _⟩ => ⟨S_, .i32⟩
  | .hbm, ⟨16, _⟩ => ⟨S4194304, .i32⟩
  | .hbm, ⟨17, _⟩ => ⟨S4194304, .i32⟩
  | .hbm, ⟨18, _⟩ => ⟨S4194304, .i32⟩
  | .hbm, ⟨19, _⟩ => ⟨S4194304x1, .i32⟩
  | .hbm, ⟨20, _⟩ => ⟨S6x4194304, .f32⟩
  | .hbm, ⟨21, _⟩ => ⟨S_, .i32⟩
  | .hbm, ⟨22, _⟩ => ⟨S4194304, .i32⟩
  | .hbm, ⟨23, _⟩ => ⟨S4194304, .i1⟩
  | .hbm, ⟨24, _⟩ => ⟨S_, .i32⟩
  | .hbm, ⟨25, _⟩ => ⟨S4194304, .i32⟩
  | .hbm, ⟨26, _⟩ => ⟨S4194304, .i32⟩
  | .hbm, ⟨27, _⟩ => ⟨S4194304, .i32⟩
  | .hbm, ⟨28, _⟩ => ⟨S4194304x1, .i32⟩
  | .hbm, ⟨29, _⟩ => ⟨S6x4194304, .f32⟩
  | .hbm, ⟨30, _⟩ => ⟨S6x4194304, .f32⟩
  | .hbm, ⟨31, _⟩ => ⟨S3x4194304, .f32⟩
  | .hbm, ⟨32, _⟩ => ⟨S3x4194304, .f32⟩
  | .hbm, ⟨33, _⟩ => ⟨S3x4194304, .f32⟩
  | .hbm, ⟨34, _⟩ => ⟨S_, .f32⟩
  | .hbm, ⟨35, _⟩ => ⟨S4194304, .f32⟩
  | .hbm, ⟨36, _⟩ => ⟨S3x4194304, .f32⟩
  | .hbm, ⟨37, _⟩ => ⟨S_, .f32⟩
  | .hbm, ⟨38, _⟩ => ⟨S4194304, .f32⟩
  | .hbm, ⟨39, _⟩ => ⟨S4194304, .f32⟩
  | .hbm, ⟨40, _⟩ => ⟨S4194304, .f32⟩
  | .hbm, ⟨41, _⟩ => ⟨S4194304, .f32⟩
  | .hbm, ⟨42, _⟩ => ⟨S1x4194304, .f32⟩
  | .hbm, ⟨43, _⟩ => ⟨S1x1, .f32⟩
  | .hbm, ⟨44, _⟩ => ⟨S_, .f32⟩
  | .hbm, ⟨45, _⟩ => ⟨S_, .f32⟩
  | .hbm, ⟨46, _⟩ => ⟨S_, .f32⟩
  | .local _ .vmem, ⟨0, _⟩ => ⟨S1x262144, .f32⟩
  | .local _ .vmem, ⟨1, _⟩ => ⟨S1x262144, .f32⟩
  | .local _ .vmem, ⟨2, _⟩ => ⟨S1x1, .f32⟩
  | .local _ .vmem, ⟨3, _⟩ => ⟨S1x1, .f32⟩
  | _, _ => ⟨S262144x3x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_v7 : Ref sig .tc := ⟨.hbm, 13, rfl⟩
abbrev main_v8 : Ref sig .tc := ⟨.hbm, 14, rfl⟩
abbrev main_c_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_1 : Ref sig .tc := ⟨.hbm, 21, rfl⟩
abbrev main_v14 : Ref sig .tc := ⟨.hbm, 22, rfl⟩
abbrev main_v15 : Ref sig .tc := ⟨.hbm, 23, rfl⟩
abbrev main_c_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v13 : BitVec 1 := Scalar.cmpi .eq arg0 c15_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

class Facts₀ : Prop where
  slices_S262144x3x3_S262144x1x3_0_1_0 : S262144x3x3.Slices ![0, 1, 0] S262144x1x3
  shapeCasts_S262144x1x3_S262144x3 : S262144x1x3.ShapeCasts S262144x3
  transposes_S262144x3_S3x262144_1_0 : S262144x3.Transposes [1, 0] S3x262144
  concatenates_S3x262144_S3x262144_S6x262144_d0 : Shape.Concatenates [S3x262144, S3x262144] S6x262144 0
  bcast_S_S4194304 : S_.BroadcastsInDim S4194304 (![] : Fin 0 → Fin S4194304.rank)
  bcast_S4194304_S4194304x1_0 : S4194304.BroadcastsInDim S4194304x1 (![0] : Fin 1 → Fin S4194304x1.rank)
  slices_S6x4194304_S3x4194304_0_0 : S6x4194304.Slices ![0, 0] S3x4194304
  slices_S6x4194304_S3x4194304_3_0 : S6x4194304.Slices ![3, 0] S3x4194304
  reducesTo_S3x4194304_S4194304_d0 : S3x4194304.ReducesTo [0] S4194304
  h_S_ : 0 < S_.numel
  bcast_S4194304_S1x4194304_1 : S4194304.BroadcastsInDim S1x4194304 (![1] : Fin 1 → Fin S1x4194304.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x262144_S1x262144_0_0 : ∀ a, (![0, 0] : Fin 2 → Nat) a + S1x262144.size a ≤ S1x262144.size a
  h_S1x262144 : 0 < S1x262144.numel
  shapeCasts_S1x262144_S1x262144 : S1x262144.ShapeCasts S1x262144
  reduces_S1x262144_S1 : S1x262144.Reduces [1] S1
  shapeCasts_S1_S1x1 : S1.ShapeCasts S1x1
  shapeCasts_S1x1_S_ : S1x1.ShapeCasts S_
  gather_S6x262144_S4194304x1_S6x4194304_0_1_n_n_1_1_61_wf : GatherDims.WF S6x262144 S4194304x1 S6x4194304 [0] [1] [] [1] [] 1 ![6, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x262144.size a ≤ S1x4194304.size a
  hwx0_0 : ∀ i : grid0.Coords, EltTy.bits .f32 = 32 ∨ (Rect.block (s := S1x4194304) S1x262144.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)

variable [Facts₀]

def gather_S6x262144_S4194304x1_S6x4194304_0_1_n_n_1_1_61 : GatherDims S6x262144 S4194304x1 S6x4194304 where
  offsetDims := [0]
  collapsedSliceDims := [1]
  operandBatchingDims := []
  startIndicesBatchingDims := []
  startIndexMap := [1]
  indexVectorDim := 1
  sliceSizes := ![6, 1]
  wf := gather_S6x262144_S4194304x1_S6x4194304_0_1_n_n_1_1_61_wf

abbrev win0_0 : Pipeline.Window sig grid0 :=
  Pipeline.Window.ofSpec (Memref.whole main_v31) S1x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S262144x3x3 : Shape := ⟨3, ![262144, 3, 3]⟩
abbrev S262144 : Shape := ⟨1, ![262144]⟩
abbrev S4194304 : Shape := ⟨1, ![4194304]⟩
abbrev S262144x1x3 : Shape := ⟨3, ![262144, 1, 3]⟩
abbrev S262144x3 : Shape := ⟨2, ![262144, 3]⟩
abbrev S_ : Shape := ⟨0, ![]⟩
abbrev S4194304x1 : Shape := ⟨2, ![4194304, 1]⟩
abbrev S4194304x3 : Shape := ⟨2, ![4194304, 3]⟩

abbrev nBuf : Space → Nat
  | .hbm => 61
  | .vmem => 0
  | .smem => 0
  | _ => 0

abbrev bufTy : (tb : Table) → Fin (tcTables nBuf tb) → BufTy
  | .hbm, ⟨0, _⟩ => ⟨S262144x3x3, .f32⟩
  | .hbm, ⟨1, _⟩ => ⟨S262144x3x3, .f32⟩
  | .hbm, ⟨2, _⟩ => ⟨S262144, .f32⟩
  | .hbm, ⟨3, _⟩ => ⟨S4194304, .i32⟩
  | .hbm, ⟨4, _⟩ => ⟨S4194304, .i32⟩
  | .hbm, ⟨5, _⟩ => ⟨S262144x1x3, .f32⟩
  | .hbm, ⟨6, _⟩ => ⟨S262144x3, .f32⟩
  | .hbm, ⟨7, _⟩ => ⟨S262144x1x3, .f32⟩
  | .hbm, ⟨8, _⟩ => ⟨S262144x3, .f32⟩
  | .hbm, ⟨9, _⟩ => ⟨S_, .i32⟩
  | .hbm, ⟨10, _⟩ => ⟨S4194304, .i32⟩
  | .hbm, ⟨11, _⟩ => ⟨S4194304, .i1⟩
  | .hbm, ⟨12, _⟩ => ⟨S_, .i32⟩
  | .hbm, ⟨13, _⟩ => ⟨S4194304, .i32⟩
  | .hbm, ⟨14, _⟩ => ⟨S4194304, .i32⟩
  | .hbm, ⟨15, _⟩ => ⟨S4194304, .i32⟩
  | .hbm, ⟨16, _⟩ => ⟨S4194304x1, .i32⟩
  | .hbm, ⟨17, _⟩ => ⟨S4194304x3, .f32⟩
  | .hbm, ⟨18, _⟩ => ⟨S_, .i32⟩
  | .hbm, ⟨19, _⟩ => ⟨S4194304, .i32⟩
  | .hbm, ⟨20, _⟩ => ⟨S4194304, .i1⟩
  | .hbm, ⟨21, _⟩ => ⟨S_, .i32⟩
  | .hbm, ⟨22, _⟩ => ⟨S4194304, .i32⟩
  | .hbm, ⟨23, _⟩ => ⟨S4194304, .i32⟩
  | .hbm, ⟨24, _⟩ => ⟨S4194304, .i32⟩
  | .hbm, ⟨25, _⟩ => ⟨S4194304x1, .i32⟩
  | .hbm, ⟨26, _⟩ => ⟨S4194304x3, .f32⟩
  | .hbm, ⟨27, _⟩ => ⟨S4194304x3, .f32⟩
  | .hbm, ⟨28, _⟩ => ⟨S4194304x3, .f32⟩
  | .hbm, ⟨29, _⟩ => ⟨S_, .f32⟩
  | .hbm, ⟨30, _⟩ => ⟨S4194304, .f32⟩
  | .hbm, ⟨31, _⟩ => ⟨S4194304, .f32⟩
  | .hbm, ⟨32, _⟩ => ⟨S_, .i32⟩
  | .hbm, ⟨33, _⟩ => ⟨S4194304, .i32⟩
  | .hbm, ⟨34, _⟩ => ⟨S4194304, .i1⟩
  | .hbm, ⟨35, _⟩ => ⟨S_, .i32⟩
  | .hbm, ⟨36, _⟩ => ⟨S4194304, .i32⟩
  | .hbm, ⟨37, _⟩ => ⟨S4194304, .i32⟩
  | .hbm, ⟨38, _⟩ => ⟨S4194304, .i32⟩
  | .hbm, ⟨39, _⟩ => ⟨S4194304x1, .i32⟩
  | .hbm, ⟨40, _⟩ => ⟨S4194304x3, .f32⟩
  | .hbm, ⟨41, _⟩ => ⟨S_, .i32⟩
  | .hbm, ⟨42, _⟩ => ⟨S4194304, .i32⟩
  | .hbm, ⟨43, _⟩ => ⟨S4194304, .i1⟩
  | .hbm, ⟨44, _⟩ => ⟨S_, .i32⟩
  | .hbm, ⟨45, _⟩ => ⟨S4194304, .i32⟩
  | .hbm, ⟨46, _⟩ => ⟨S4194304, .i32⟩
  | .hbm, ⟨47, _⟩ => ⟨S4194304, .i32⟩
  | .hbm, ⟨48, _⟩ => ⟨S4194304x1, .i32⟩
  | .hbm, ⟨49, _⟩ => ⟨S4194304x3, .f32⟩
  | .hbm, ⟨50, _⟩ => ⟨S4194304x3, .f32⟩
  | .hbm, ⟨51, _⟩ => ⟨S4194304x3, .f32⟩
  | .hbm, ⟨52, _⟩ => ⟨S_, .f32⟩
  | .hbm, ⟨53, _⟩ => ⟨S4194304, .f32⟩
  | .hbm, ⟨54, _⟩ => ⟨S4194304, .f32⟩
  | .hbm, ⟨55, _⟩ => ⟨S4194304, .f32⟩
  | .hbm, ⟨56, _⟩ => ⟨S4194304, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | _, _ => ⟨S262144x3x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_v19 : Ref sig .tc := ⟨.hbm, 31, rfl⟩
abbrev main_c_3 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call1_v0 : Ref sig .tc := ⟨.hbm, 51, rfl⟩
abbrev main_call1_cst : Ref sig .tc := ⟨.hbm, 52, rfl⟩
abbrev main_call1_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩

abbrev nD : Nat := 1
abbrev τ : Topo := Topo.v7x

variable {F : FTy → Type} [FloatOps F]

class Facts₀ : Prop where
  slices_S262144x3x3_S262144x1x3_0_1_0 : S262144x3x3.Slices ![0, 1, 0] S262144x1x3
  shapeCasts_S262144x1x3_S262144x3 : S262144x1x3.ShapeCasts S262144x3
  bcast_S_S4194304 : S_.BroadcastsInDim S4194304 (![] : Fin 0 → Fin S4194304.rank)
  bcast_S4194304_S4194304x1_0 : S4194304.BroadcastsInDim S4194304x1 (![0] : Fin 1 → Fin S4194304x1.rank)
  reducesTo_S4194304x3_S4194304_d1 : S4194304x3.ReducesTo [1] S4194304
  h_S_ : 0 < S_.numel
  reducesTo_S4194304_S_d0 : S4194304.ReducesTo [0] S_
  gather_S262144x3_S4194304x1_S4194304x3_1_0_n_n_0_1_13_wf : GatherDims.WF S262144x3 S4194304x1 S4194304x3 [1] [0] [] [0] [] 1 ![1, 3]

variable [Facts₀]

def gather_S262144x3_S4194304x1_S4194304x3_1_0_n_n_0_1_13 : GatherDims S262144x3 S4194304x1 S4194304x3 where
  offsetDims := [1]
  collapsedSliceDims := [0]
  operandBatchingDims := []
  startIndicesBatchingDims := []
  startIndexMap := [0]
  indexVectorDim := 1
  sliceSizes := ![1, 3]
  wf := gather_S262144x3_S4194304x1_S4194304x3_1_0_n_n_0_1_13_wf

class Facts : Prop extends Facts₀ where

variable [Facts]
-- ==== Proof.LibRowGather.lean ====
/-
  Rows gathered out of a table, read at coordinates.

  A table `[N, C]` indexed by an integer array gives, for every entry of the integer array, one row of the table:
  the entry is read as a signed integer and clamped into `[0, N - 1]` (`rowOf`), and the result holds that row's
  `C` entries along a new last axis. Two layouts of the integer array are read here: a column `[R, 1]` (result
  `[R, C]`) and a block `[A, B, 1]` (result `[A, B, C]`). Each lemma names the table's index by coordinates, so that
  it applies by unification at any literal extents.
-/
import Idealize.ShloMosaic.Lib.ValueIdx

namespace Cert.LibRowGather

open Idealize.ShloMosaic Idealize.ShloMosaic.ValueIdx

variable {α : Type}

/-- The row of a table of `N` rows that a start word names: the word read as a signed integer, clamped into
    `[0, N - 1]`. -/
def rowOf (N : ℕ) (hN : 0 < N) {w : ℕ} (v : BitVec w) : Fin N := ⟨min v.toInt.toNat (N - 1), by omega⟩

/-- An axis of a two-axis array is the first or the second. -/
theorem two_cases (a : Fin 2) : a = 0 ∨ a = 1 := by
  rcases a with ⟨v, hv⟩
  rcases (by omega : v = 0 ∨ v = 1) with rfl | rfl
  · exact Or.inl rfl
  · exact Or.inr rfl

/-! ## Start words in a column `[R, 1]` -/

/-- The dimension numbers of `table[idx]` for a table `[N, C]` and start words `[R, 1]`: the table's row axis is
    indexed and collapsed, its column axis is copied whole to the result's last axis. -/
abbrev rowDims (N C R : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at `(r, e)`: entry `e` of the table's row named by the start word of position `r`. -/
theorem rowGather_apply {N C R w : ℕ} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (e : Fin C) :
    Host.gather (rowDims N C R wf) x idx (ix2 r e) = x (ix2 (rowOf N hN (idx (ix2 r (0 : Fin 1)))) e) := by
  unfold Host.gather
  congr 1
  funext a
  refine Fin.ext ?_
  show (rowDims N C R wf).start (ix2 r e) idx a + (rowDims N C R wf).batchCoord (ix2 r e) a
    + (rowDims N C R wf).offCoord (ix2 r e) a = _
  rw [GatherDims.batchCoord_eq_zero _ _ _ List.not_mem_nil]
  rcases two_cases a with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 r e) ⟨List.idxOf (0 : Fin 2) (rowDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · have hs : (1 : Fin 2) ∉ (rowDims N C R wf).startIndexMap := (by decide : (1 : Fin 2) ∉ ([0] : List (Fin 2)))
    have hk : (1 : Fin 2) ∈ (rowDims N C R wf).sKept :=
      (by decide : (1 : Fin 2) ∈ (List.finRange 2).filter (· ∉ ([0] : List (Fin 2)) ++ []))
    unfold GatherDims.start
    rw [dif_neg hs]
    unfold GatherDims.offCoord
    rw [dif_pos hk]
    show 0 + 0 + e.val = e.val
    omega

/-! ## Start words in a block `[A, B, 1]` -/

/-- The same for start words `[A, B, 1]`: the result is `[A, B, C]`. -/
abbrev rowDims3 (N C A B : ℕ)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- The gather read at `(a, b, e)`: entry `e` of the table's row named by the start word of position `(a, b)`. -/
theorem rowGather3_apply {N C A B w : ℕ} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (e : Fin C) :
    Host.gather (rowDims3 N C A B wf) x idx (ix3 a b e) = x (ix2 (rowOf N hN (idx (ix3 a b (0 : Fin 1)))) e) := by
  unfold Host.gather
  congr 1
  funext ax
  refine Fin.ext ?_
  show (rowDims3 N C A B wf).start (ix3 a b e) idx ax + (rowDims3 N C A B wf).batchCoord (ix3 a b e) ax
    + (rowDims3 N C A B wf).offCoord (ix3 a b e) ax = _
  rw [GatherDims.batchCoord_eq_zero _ _ _ List.not_mem_nil]
  rcases two_cases ax with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 N C A B wf).startIndexMap from List.mem_singleton.mpr rfl)]
    have hsi : (rowDims3 N C A B wf).siIdx (ix3 a b e) ⟨List.idxOf (0 : Fin 2) (rowDims3 N C A B wf).startIndexMap,
        List.idxOf_lt_length_iff.2 (List.mem_singleton.mpr rfl)⟩ = ix3 a b (0 : Fin 1) := by
      funext d; refine Fin.ext ?_
      match d with
      | ⟨0, _⟩ => rfl
      | ⟨1, _⟩ => rfl
      | ⟨2, _⟩ => rfl
    rw [hsi]
    rfl
  · have hs : (1 : Fin 2) ∉ (rowDims3 N C A B wf).startIndexMap := (by decide : (1 : Fin 2) ∉ ([0] : List (Fin 2)))
    have hk : (1 : Fin 2) ∈ (rowDims3 N C A B wf).sKept :=
      (by decide : (1 : Fin 2) ∈ (List.finRange 2).filter (· ∉ ([0] : List (Fin 2)) ++ []))
    unfold GatherDims.start
    rw [dif_neg hs]
    unfold GatherDims.offCoord
    rw [dif_pos hk]
    show 0 + 0 + e.val = e.val
    omega

end Cert.LibRowGather
-- ==== Proof.ResidualDefs.lean ====
/-
  The residual of one sampled pair, computed two ways from the same two coordinate tables.

  A table `X : [N, 3]` holds one point of space per row. For a pair of rows `(a, b)` the residual is
  `|X a − X b| − |Y a − Y b|`: the difference of the two Euclidean distances, each the square root of the sum over the
  three coordinates of the squared coordinate difference (the sum starting from the zero word). One program stacks the
  two tables transposed into a `[6, N]` array, gathers a column per pair, subtracts, cuts the result into its upper
  and lower three rows, squares and sums down the rows; the other gathers a row of each table per pair, subtracts,
  squares and sums along the row. Column `p` of the first and row `p` of the second hold the same three numbers, so
  the two residual vectors are equal entry by entry.
-/
import Idealize.ShloMosaic.Lib.Pipeline.Value
import Idealize.ShloMosaic.Lib.ValueIdx
import Idealize.ShloMosaic.Lib.ValueLayout
import Idealize.ShloMosaic.PureOps.Ideal.Laws
import proofs.«116029_j83056077570644_2_alg».proof.Proof.LibRowGather

noncomputable section

namespace Cert.PairLoss

open Idealize.ShloMosaic Idealize.ShloMosaic.ValueIdx Cert.LibRowGather

abbrev SN3 : Shape := ⟨2, ![262144, 3]⟩
abbrev S3N : Shape := ⟨2, ![3, 262144]⟩
abbrev S6N : Shape := ⟨2, ![6, 262144]⟩
abbrev SP1 : Shape := ⟨2, ![4194304, 1]⟩
abbrev S6P : Shape := ⟨2, ![6, 4194304]⟩
abbrev S3P : Shape := ⟨2, ![3, 4194304]⟩
abbrev SP3 : Shape := ⟨2, ![4194304, 3]⟩
abbrev SP : Shape := ⟨1, ![4194304]⟩
abbrev S0 : Shape := ⟨0, ![]⟩

/-- The residual of the pair of rows `(a, b)`. -/
def resAt (X Y : SN3.Idx → EReal) (a b : Fin 262144) : EReal :=
  Ideal.sqrt (Ideal.ofBits .f32 0x00000000#32 + ∑ d : Fin 3, (X (ix2 a d) - X (ix2 b d)) * (X (ix2 a d) - X (ix2 b d)))
    - Ideal.sqrt (Ideal.ofBits .f32 0x00000000#32 + ∑ d : Fin 3, (Y (ix2 a d) - Y (ix2 b d)) * (Y (ix2 a d) - Y (ix2 b d)))

/-- The dimension numbers of a gather of whole columns of a `[6, N]` array by start words `[P, 1]`. -/
abbrev colDims (wf : GatherDims.WF S6N SP1 S6P [0] [1] [] [1] [] 1 ![6, 1]) : GatherDims S6N SP1 S6P where
  offsetDims := [0]
  collapsedSliceDims := [1]
  operandBatchingDims := []
  startIndicesBatchingDims := []
  startIndexMap := [1]
  indexVectorDim := 1
  sliceSizes := ![6, 1]
  wf := wf

/-- The residual vector as the first program computes it, from the two tables and the two columns of start words. -/
def kRes (X Y : FVec Ideal SN3 .f32) (IL IR : IVec SP1 32)
    (hT : SN3.Transposes [1, 0] S3N) (hC : Shape.Concatenates [S3N, S3N] S6N 0)
    (hG : GatherDims.WF S6N SP1 S6P [0] [1] [] [1] [] 1 ![6, 1])
    (hS0 : S6P.Slices ![0, 0] S3P) (hS3 : S6P.Slices ![3, 0] S3P) (hR : S3P.ReducesTo [0] SP) (h0 : 0 < S0.numel) :
    FVec Ideal SP .f32 :=
  let T : FVec Ideal S6N .f32 := concatenate S6N 0 [⟨S3N, transpose S3N [1, 0] X hT⟩, ⟨S3N, transpose S3N [1, 0] Y hT⟩] hC
  let D : FVec Ideal S6P .f32 := subf (Host.gather (colDims hG) T IL) (Host.gather (colDims hG) T IR)
  let U : FVec Ideal S3P .f32 := extractStridedSlice S3P ![0, 0] D hS0
  let L : FVec Ideal S3P .f32 := extractStridedSlice S3P ![3, 0] D hS3
  subf (Host.sqrt (Host.reduceAdd (F := Ideal) (mulf U U) (constant (F := Ideal) S0 .f32 0x00000000#32) hR h0))
    (Host.sqrt (Host.reduceAdd (F := Ideal) (mulf L L) (constant (F := Ideal) S0 .f32 0x00000000#32) hR h0))

/-- The residual vector as the second program computes it. -/
def rRes (X Y : FVec Ideal SN3 .f32) (IL IR : IVec SP1 32)
    (hG : GatherDims.WF SN3 SP1 SP3 [1] [0] [] [0] [] 1 ![1, 3]) (hR : SP3.ReducesTo [1] SP) (h0 : 0 < S0.numel) :
    FVec Ideal SP .f32 :=
  let DX : FVec Ideal SP3 .f32 := subf (Host.gather (rowDims 262144 3 4194304 hG) X IL) (Host.gather (rowDims 262144 3 4194304 hG) X IR)
  let DY : FVec Ideal SP3 .f32 := subf (Host.gather (rowDims 262144 3 4194304 hG) Y IL) (Host.gather (rowDims 262144 3 4194304 hG) Y IR)
  subf (Host.sqrt (Host.reduceAdd (F := Ideal) (mulf DX DX) (constant (F := Ideal) S0 .f32 0x00000000#32) hR h0))
    (Host.sqrt (Host.reduceAdd (F := Ideal) (mulf DY DY) (constant (F := Ideal) S0 .f32 0x00000000#32) hR h0))

end Cert.PairLoss

end
-- ==== Proof.LibCat2.lean ====
/-
  Two arrays joined along an axis, as a function of the two arrays.

  The programs write the join of two arrays as an operation on a list of (shape, array) pairs, under a shape fact
  stated of that list; cat2 is the same join with the two arrays as plain arguments, so that an equation between the
  joined arrays follows from equations between the parts (a rewriting pass can then reach the two operands, which it
  cannot do through the list). Generic in the shapes, the axis and the element type.
-/
import Idealize.ShloMosaic.PureOps.Ideal.Laws

namespace Cert.LibCat2

open Idealize.ShloMosaic

/-- The join of p (shape s1) and q (shape s2) along axis a of the result shape t. -/
def cat2 {α : Type} (t : Shape) (a : Fin t.rank) (s1 s2 : Shape) (h : Shape.Concatenates [s1, s2] t a)
    (p : s1.Idx → α) (q : s2.Idx → α) : t.Idx → α :=
  concatenate t a [⟨s1, p⟩, ⟨s2, q⟩] h

/-- The join written on the list of pairs is cat2 of the two arrays. -/
theorem cat2_fun {α : Type} (t : Shape) (a : Fin t.rank) (s1 s2 : Shape) (h : Shape.Concatenates [s1, s2] t a) :
    (fun (p : s1.Idx → α) (q : s2.Idx → α) => concatenate t a [⟨s1, p⟩, ⟨s2, q⟩] h) = cat2 t a s1 s2 h := rfl

end Cert.LibCat2
-- ==== Proof.Row.lean ====
/-
  The row the region reads: the residual vector of the 4194304 sampled pairs, laid out as `[1, 4194304]`.

  The host lines before the region take the middle point of every residue of the two structures, stack the two
  tables of points transposed, gather a column for the left and for the right residue of every pair, and from the
  differences compute each pair's residual (the difference of its two distances). Block `t` of the row holds the
  residuals of the pairs `262144 · t, …, 262144 · t + 262143`.
-/
import proofs.«116029_j83056077570644_2_alg».proof.Proof.Gen.KernelIdeal.Frame
import proofs.«116029_j83056077570644_2_alg».proof.Proof.ResidualDefs
import proofs.«116029_j83056077570644_2_alg».proof.Proof.LibCat2
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.PairRow

open Cert.KernelIdeal Cert.KernelIdeal.Gen Cert.PairLoss

variable (m : (ℓ : Loc nD τ sig) → Buf (Elt Ideal) ℓ)

/-- The table of middle points of an argument array `[N, 3, 3]`: row `n` holds the point `x[n, 1, ·]`. -/
abbrev table (x : S262144x3x3.Idx → EReal) : FVec Ideal SN3 .f32 :=
  shapeCast S262144x3 (extractStridedSlice S262144x1x3 ![0, 1, 0] x slices_S262144x3x3_S262144x1x3_0_1_0) shapeCasts_S262144x1x3_S262144x3

/-- The column of start words of an index array: a negative word is raised by `N` first. -/
abbrev words (i : IVec S4194304 32) : IVec SP1 32 :=
  broadcastInDim S4194304x1 ![0] bcast_S4194304_S4194304x1_0
    (select (cmpi .slt i (broadcastInDim S4194304 ![] bcast_S_S4194304 (constantI S_ 32 0#32)))
      (addi i (broadcastInDim S4194304 ![] bcast_S_S4194304 (constantI S_ 32 262144#32))) i)

/-- The residual vector the host lines before the region compute. -/
def resVec (c : Dev nD) : FVec Ideal SP .f32 :=
  kRes (table (m ((c : Thread nD τ).loc main_arg0))) (table (m ((c : Thread nD τ).loc main_arg1)))
    (words (m ((c : Thread nD τ).loc main_arg3))) (words (m ((c : Thread nD τ).loc main_arg4)))
    transposes_S262144x3_S3x262144_1_0 concatenates_S3x262144_S3x262144_S6x262144_d0
    gather_S6x262144_S4194304x1_S6x4194304_0_1_n_n_1_1_61_wf slices_S6x4194304_S3x4194304_0_0 slices_S6x4194304_S3x4194304_3_0
    reducesTo_S3x4194304_S4194304_d0 h_S_

/-- The region finds the residual vector laid out as one row. -/
theorem V_row (c : Dev nD) :
    (V m c main_v31 : S1x4194304.Idx → EReal) = broadcastInDim S1x4194304 ![1] bcast_S4194304_S1x4194304_1 (resVec m c) := by
  dsimp only [V, V0]
  simp only [hostOps0, List.flatten_cons, List.flatten_nil, List.append_nil, Cert.LibCat2.cat2_fun]
  after_results_simp
  rfl

/-- Entry `(0, j)` of the row is entry `j` of the residual vector. -/
theorem V_row_apply (c : Dev nD) (j : Fin 4194304) : V m c main_v31 (ix2 (0 : Fin 1) j) = resVec m c (ix1 j) :=
  (congrFun (V_row m c) (ix2 (0 : Fin 1) j)).trans
    (broadcastInDim_apply _ bcast_S4194304_S1x4194304_1 (resVec m c) (ix2 (0 : Fin 1) j) (ix1 j) (fun a => match a with
      | ⟨0, _⟩ => by show j.val = if (4194304 : Nat) = 1 then 0 else j.val; rw [if_neg (by decide)]))

/-- Block `t` of the row is the block at `(0, t)`. -/
theorem rowIdx : ∀ t : Fin cfg0.N, win0_0.index t 0 = 0 ∧ win0_0.index t 1 = t.val :=
  (by decide +kernel : ∀ t : Fin grid0.N, win0_0.index t 0 = 0 ∧ win0_0.index t 1 = t.val)

/-- Position `s` of block `t` of any row `f` is position `s + 262144 · t` of the row. -/
theorem blk_read (f : S1x4194304.Idx → EReal) (t : Fin cfg0.N) (s : Fin 262144) (j : Fin 4194304) (hj : j.val = s.val + 262144 * t.val) :
    (((cfg0.win 0).blk t).view.read (Elt Ideal) f : Vec Ideal S1x262144 .f32) (ix2 (0 : Fin 1) s) = f (ix2 (0 : Fin 1) j) := by
  rw [View.read_apply]
  show f _ = f _
  refine congrArg f (funext fun a => Fin.ext ?_)
  match a with
  | ⟨0, _⟩ => show win0_0.index t 0 * 1 + 1 * 0 = 0; rw [(rowIdx t).1]
  | ⟨1, _⟩ => show win0_0.index t 1 * 262144 + 1 * s.val = j.val; rw [(rowIdx t).2, hj]; omega

/-- Position `s` of block `t` is the residual of pair `s + 262144 · t`. -/
theorem block_apply (c : Dev nD) (t : Fin cfg0.N) (s : Fin 262144) (j : Fin 4194304) (hj : j.val = s.val + 262144 * t.val) :
    (iblk m c 0 t : Vec Ideal S1x262144 .f32) (ix2 (0 : Fin 1) s) = resVec m c (ix1 j) := by
  unfold iblk
  exact (blk_read (V m c main_v31) t s j hj).trans (V_row_apply m c j)

end Cert.KernelIdeal.PairRow

end
-- ==== Proof.Body.lean ====
/-
  What the kernel body leaves behind at one grid point.

  The body keeps a running total in a one-entry scratch buffer. At the first point it stores the zero word there; at
  every point it loads its block `x` of 262144 residuals and the total `a`, and stores back `a + Σₛ x(0,s)²` (the
  function `step` below); at the last point it copies the total into the one-entry output block.
-/
import proofs.«116029_j83056077570644_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.PairBody

open Cert.KernelIdeal Cert.KernelIdeal.Gen

variable {F : FTy → Type} [FloatOps F]

theorem hz : (![0, 0] : Fin 2 → Nat) = fun _ => 0 := funext fun a => by fin_cases a <;> rfl

/-- One point's update of the total `a` by the block `x`. -/
abbrev step (x : Vec F S1x262144 .f32) (a : Vec F S1x1 .f32) : Vec F S1x1 .f32 := k0_pay2 x a

/-- A middle point leaves `step x a` in the scratch buffer that held `a`. -/
theorem scratch_B (c : Dev nD) (i : grid0.Coords) (a1 : Memref sig .tc .vmem S1x262144 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : ¬cond0_1 i) (x : Vec F S1x262144 .f32) (a : Vec F S1x1 .f32) :
    sout0_B_0 c i a1 h1 a2 h2 a3 h3 hc0 hc1 x a = step x a := by
  unfold sout0_B_0
  rw [View.read_writes_eq_canon _ _ _ (scover0_B_0 c i a1 h1 a2 h2 a3 h3 hc0 hc1 x a)]
  unfold kernelRun0_B
  dsimp only
  rw [View.canon_unit_zero hz]
  simp only [View.readAt_eq_ld, h1.read_unread, h3.read_unread, View.ld_unit_zero (S := S1x262144) hz, View.ld_unit_zero (S := S1x1) hz]

/-- The zero block the first point stores. -/
abbrev zero : Vec F S1x1 .f32 := k0_pay1

/-- The first point leaves `step x zero` in the scratch buffer, whatever it held. -/
theorem scratch_A (c : Dev nD) (i : grid0.Coords) (a1 : Memref sig .tc .vmem S1x262144 .f32) (h1 : a1.IsWhole)
    (a2 : Memref sig .tc .vmem S1x1 .f32) (h2 : a2.IsWhole) (a3 : Memref sig .tc .vmem S1x1 .f32) (h3 : a3.IsWhole)
    (hc0 : cond0_0 i) (hc1 : ¬cond0_1 i) (x : Vec F S1x262144 .f32) :
    sout0_A_0 c i a1 h1 a2 h2 a3 h3 hc0 hc1 x = step x zero := by
  unfold sout0_A_0
  rw [View.read_writes_eq_canon _ _ _ (scover0_A_0 c i a1 h1 a2 h2 a3 h3 hc0 hc1 x)]
  unfold kernelRun0_A
  dsimp only
  sl_unfold_words
  rw [View.canon_cons_unit_zero (S := S1x1) hz, View.readCov_unit_zero (S := S1x1) _ hz]
  simp only [View.readAt_eq_ld, h1.read_unread, View.ld_unit_zero (S := S1x262144) hz]

/-- The last point leaves `step x a` in the scratch buffer that held `a`, -/
theorem scratch_C (c : Dev nD) (i : grid0.Coords) (a1 : Memref sig .tc .vmem S1x262144 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S1x262144 .f32) (a : Vec F S1x1 .f32) :
    sout0_C_0 c i a1 h1 a2 h2 a3 h3 hc0 hc1 x a = step x a := by
  unfold sout0_C_0
  rw [View.read_writes_eq_canon _ _ _ (scover0_C_0 c i a1 h1 a2 h2 a3 h3 hc0 hc1 x a)]
  unfold kernelRun0_C
  dsimp only
  sl_unfold_words
  rw [View.canon_unit_zero hz]
  simp only [View.readAt_eq_ld, h1.read_unread, h3.read_unread, View.ld_unit_zero (S := S1x262144) hz, View.ld_unit_zero (S := S1x1) hz]

/-- and the same in the output block. -/
theorem out_C (c : Dev nD) (i : grid0.Coords) (a1 : Memref sig .tc .vmem S1x262144 .f32) (h1 : a1.IsWhole)
    (a2 : Memref sig .tc .vmem S1x1 .f32) (h2 : a2.IsWhole) (a3 : Memref sig .tc .vmem S1x1 .f32) (h3 : a3.IsWhole)
    (hc0 : ¬cond0_0 i) (hc1 : cond0_1 i) (x : Vec F S1x262144 .f32) (a : Vec F S1x1 .f32) :
    out0_C_1 c i a1 h1 a2 h2 a3 h3 hc0 hc1 x a = step x a := by
  unfold out0_C_1
  rw [View.read_writes_eq_canon _ _ _ (cover0_C_1 c i a1 h1 a2 h2 a3 h3 hc0 hc1 x a)]
  unfold kernelRun0_C
  dsimp only
  sl_unfold_words
  rw [View.canon_unit_zero hz, View.readCov_unit_zero (S := S1x1) _ hz]
  simp only [View.readAt_eq_ld, h1.read_unread, h3.read_unread, View.ld_unit_zero (S := S1x262144) hz, View.ld_unit_zero (S := S1x1) hz]

/-! ## The running total, point by point -/

variable (m : (ℓ : Loc nD τ sig) → Buf (Elt F) ℓ)

/-- The block of 262144 residuals the body loads at point `t`. -/
abbrev blockAt (c : Dev nD) (t : Fin cfg0.N) : Vec F S1x262144 .f32 := iblk m c 0 t

/-- The total after point `n`: the first point starts from the zero block, every later one from the total before it. -/
def total (c : Dev nD) : (n : ℕ) → n < cfg0.N → Vec F S1x1 .f32
  | 0, h => step (blockAt m c ⟨0, h⟩) zero
  | n + 1, h => step (blockAt m c ⟨n + 1, h⟩) (total c n (Nat.lt_of_succ_lt h))

theorem total_zero (c : Dev nD) (h : 0 < cfg0.N) : total m c 0 h = step (blockAt m c ⟨0, h⟩) zero := rfl

theorem total_succ (c : Dev nD) (n : ℕ) (h : n + 1 < cfg0.N) :
    total m c (n + 1) h = step (blockAt m c ⟨n + 1, h⟩) (total m c n (Nat.lt_of_succ_lt h)) := rfl

/-- After every point the scratch buffer holds the running total: by induction on the point, the three kinds of
    point (first, middle, last) each adding their block to what the point before left. -/
theorem scratch_eq (c : Dev nD) : ∀ (n : ℕ) (h : n < cfg0.N), (outsAt0 m c n h).2 = total m c n h
  | 0, h => by
    rw [outsAt0_A m c ⟨0, h⟩ rfl (by dsimp only; omega)]
    dsimp only
    rw [scratch_A]
    rfl
  | n + 1, h => by
    have hN : cfg0.N = 16 := N_0
    have h0 : ¬(⟨n + 1, h⟩ : Fin cfg0.N).val % 16 = 0 := by dsimp only; omega
    by_cases h1 : (⟨n + 1, h⟩ : Fin cfg0.N).val % 16 = 15
    · rw [outsAt0_C m c ⟨n + 1, h⟩ h0 h1]
      dsimp only
      rw [scratch_C]
      show step _ (outsAt0 m c n _).2 = step _ (total m c n _)
      rw [scratch_eq c n]
    · rw [outsAt0_B m c ⟨n + 1, h⟩ h0 h1]
      dsimp only
      rw [scratch_B]
      show step _ (outsAt0 m c n _).2 = step _ (total m c n _)
      rw [scratch_eq c n]

/-- At the last point the output block holds the running total too. -/
theorem out_eq (c : Dev nD) : ∀ (n : ℕ) (h : n < cfg0.N), n % 16 = 15 → (outsAt0 m c n h).1 = total m c n h
  | 0, h, h1 => by omega
  | n + 1, h, h1 => by
    have hN : cfg0.N = 16 := N_0
    have h0 : ¬(⟨n + 1, h⟩ : Fin cfg0.N).val % 16 = 0 := by dsimp only; omega
    rw [outsAt0_C m c ⟨n + 1, h⟩ h0 h1]
    dsimp only
    rw [out_C]
    show step _ (outsAt0 m c n _).2 = step _ (total m c n _)
    rw [scratch_eq m c n]

end Cert.KernelIdeal.PairBody

end
-- ==== Proof.LibRows.lean ====
/-
  One-axis reductions and keep-dimension layout operations read at coordinates, at the exact values.

  For a two-axis array `[m, n]`: the sum and the maximum over the second axis, at row `p`, as the sum and the fold of
  `max` over `s : Fin n` of the entry `(p, s)`. For a three-axis array `[a, b, c]`: the sum over the last axis at
  `(p, s)` and the sum over the middle axis at `(p, h)`. And the casts and broadcasts that insert or repeat a unit
  axis: `[a, b] → [a, 1, b]`, `[a, b] → [a, b, 1]`, `[a, 1, c] → [a, b, c]`, `[1, 1, c] → [a, b, c]`,
  `[a, b, 1] → [a, b, c]`. Each lemma names the operand's index by coordinates, so that it applies by unification.
-/
import Idealize.ShloMosaic.Lib.Pipeline.Value
import Idealize.ShloMosaic.Lib.ValueIdx
import Idealize.ShloMosaic.PureOps.Ideal.Laws

namespace Cert.LibRows

open Idealize.ShloMosaic Idealize.ShloMosaic.ValueIdx

variable {φ : FTy}

/-! ## Reductions over one axis -/

/-- The sum over the second axis of `[m, n]`, at row `p`: `∑ₛ x (p, s)`. -/
theorem rowSum_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.add.neutral φ hφ)
    (p : Fin m) :
    multiReduction .add [(1 : Fin 2)] ⟨1, ![m]⟩ x acc h hφ hacc (ix1 p) = ∑ s : Fin n, x (ix2 p s) :=
  (Ideal.multiReduction_add_single x acc h hφ hacc (ix1 p)).trans
    (Finset.sum_congr rfl fun s _ => congrArg x (funext fun a => Fin.ext (by
      match a with
      | ⟨0, _⟩ => rfl
      | ⟨1, _⟩ => rfl)))

/-- The maximum over the second axis of `[m, n]`, at row `p`: the fold of `max`, from the accumulator's value, over
    `s` of `x (p, s)`. -/
theorem rowMax_apply {m n : ℕ} (x : FVec Ideal ⟨2, ![m, n]⟩ φ) (acc : BitVec φ.bits)
    (h : (⟨2, ![m, n]⟩ : Shape).Reduces [(1 : Fin 2)] ⟨1, ![m]⟩) (hφ : FKind.Formats φ) (hacc : acc = FKind.maximumf.neutral φ hφ)
    (p : Fin m) :
    multiReduction .maximumf [(1 : Fin 2)] ⟨1, ![m]⟩ x acc h hφ hacc (ix1 p)
      = (Finset.univ : Finset (Fin n)).fold max (Ideal.ofBits φ acc) (fun s => x (ix2 p s)) :=
  (Ideal.multiReduction_maximumf_single x acc h hφ hacc (ix1 p)).trans
    (congrArg ((Finset.univ : Finset (Fin n)).fold max (Ideal.ofBits φ acc)) (funext fun s => congrArg x (funext fun a => Fin.ext (by
      match a with
      | ⟨0, _⟩ => rfl
      | ⟨1, _⟩ => rfl))))

/-- The sum over the LAST axis of `[a, b, c]`, at `(p, s)`: `∑ₖ x (p, s, k)`. -/
theorem lastSum_apply {a b c : ℕ} (x : FVec Ideal ⟨3, ![a, b, c]⟩ φ) (acc : BitVec φ.bits)
    (h : (⟨3, ![a, b, c]⟩ : Shape).Reduces [(2 : Fin 3)] ⟨2, ![a, b]⟩) (hφ : FKind.Formats φ) (hacc : acc = FKind.add.neutral φ hφ)
    (p : Fin a) (s : Fin b) :
    multiReduction .add [(2 : Fin 3)] ⟨2, ![a, b]⟩ x acc h hφ hacc (ix2 p s) = ∑ k : Fin c, x (ix3 p s k) :=
  (Ideal.multiReduction_add_single x acc h hφ hacc (ix2 p s)).trans
    (Finset.sum_congr rfl fun k _ => congrArg x (funext fun d => Fin.ext (by
      match d with
      | ⟨0, _⟩ => rfl
      | ⟨1, _⟩ => rfl
      | ⟨2, _⟩ => rfl)))

/-- The sum over the MIDDLE axis of `[a, b, c]`, at `(p, z)`: `∑ₛ x (p, s, z)`. -/
theorem midSum_apply {a b c : ℕ} (x : FVec Ideal ⟨3, ![a, b, c]⟩ φ) (acc : BitVec φ.bits)
    (h : (⟨3, ![a, b, c]⟩ : Shape).Reduces [(1 : Fin 3)] ⟨2, ![a, c]⟩) (hφ : FKind.Formats φ) (hacc : acc = FKind.add.neutral φ hφ)
    (p : Fin a) (z : Fin c) :
    multiReduction .add [(1 : Fin 3)] ⟨2, ![a, c]⟩ x acc h hφ hacc (ix2 p z) = ∑ s : Fin b, x (ix3 p s z) :=
  (Ideal.multiReduction_add_single x acc h hφ hacc (ix2 p z)).trans
    (Finset.sum_congr rfl fun s _ => congrArg x (funext fun d => Fin.ext (by
      match d with
      | ⟨0, _⟩ => rfl
      | ⟨1, _⟩ => rfl
      | ⟨2, _⟩ => rfl)))

/-! ## Unit axes inserted and repeated -/

variable {α : Type}

/-- `[a, b]` cast to `[a, 1, b]` reads, at `(p, u, z)`, the operand at `(p, z)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (z : Fin b) :
    shapeCast ⟨3, ![a, 1, b]⟩ x h (ix3 p u z) = x (ix2 p z) :=
  shapeCast_apply x h _ _ (by
    have hu : u.val = 0 := by omega
    rw [Shape.rowMajor_val_two, Shape.rowMajor_val_three]
    show p.val * b + z.val = (p.val * 1 + u.val) * b + z.val
    rw [hu, Nat.mul_one, Nat.add_zero])

/-- `[a, b]` cast to `[a, b, 1]` reads, at `(p, s, u)`, the operand at `(p, s)`. -/
theorem shapeCast_ab_ab1_apply {a b : ℕ} (x : (⟨2, ![a, b]⟩ : Shape).Idx → α)
    (h : (⟨2, ![a, b]⟩ : Shape).ShapeCasts ⟨3, ![a, b, 1]⟩) (p : Fin a) (s : Fin b) (u : Fin 1) :
    shapeCast ⟨3, ![a, b, 1]⟩ x h (ix3 p s u) = x (ix2 p s) :=
  shapeCast_apply x h _ _ (by
    have hu : u.val = 0 := by omega
    rw [Shape.rowMajor_val_two, Shape.rowMajor_val_three]
    show p.val * b + s.val = (p.val * b + s.val) * 1 + u.val
    rw [hu, Nat.mul_one, Nat.add_zero])

/-- `[a, 1, c]` broadcast to `[a, b, c]` reads, at `(p, s, z)`, the operand at `(p, 0, z)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (s : Fin b) (z : Fin c) :
    broadcastTo ⟨3, ![a, b, c]⟩ v h (ix3 p s z) = v (ix3 p (0 : Fin 1) z) := by
  refine broadcastTo_apply v h (ix3 p s z) (ix3 p (0 : Fin 1) z) fun ax => ?_
  match ax with
  | ⟨0, _⟩ =>
    show p.val = if a = 1 then 0 else p.val
    split
    · have := p.isLt; omega
    · rfl
  | ⟨1, _⟩ => rfl
  | ⟨2, _⟩ =>
    show z.val = if c = 1 then 0 else z.val
    split
    · have := z.isLt; omega
    · rfl

/-- `[1, 1, c]` broadcast to `[a, b, c]` reads, at `(p, s, z)`, the operand at `(0, 0, z)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (z : Fin c) :
    broadcastTo ⟨3, ![a, b, c]⟩ v h (ix3 p s z) = v (ix3 (0 : Fin 1) (0 : Fin 1) z) := by
  refine broadcastTo_apply v h (ix3 p s z) (ix3 (0 : Fin 1) (0 : Fin 1) z) fun ax => ?_
  match ax with
  | ⟨0, _⟩ => rfl
  | ⟨1, _⟩ => rfl
  | ⟨2, _⟩ =>
    show z.val = if c = 1 then 0 else z.val
    split
    · have := z.isLt; omega
    · rfl

/-- `[a, b, 1]` broadcast to `[a, b, c]` reads, at `(p, s, z)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (z : Fin c) :
    broadcastTo ⟨3, ![a, b, c]⟩ v h (ix3 p s z) = v (ix3 p s (0 : Fin 1)) := by
  refine broadcastTo_apply v h (ix3 p s z) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

end Cert.LibRows
-- ==== Proof.Step.lean ====
/-
  One point's update, read at its one entry: the total it is handed plus the sum of the squares of the 262144 residuals
  of the point's block.
-/
import proofs.«116029_j83056077570644_2_alg».proof.Proof.Gen.KernelIdeal.Skeleton
import proofs.«116029_j83056077570644_2_alg».proof.Proof.LibRows
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.PairStep

open Cert.KernelIdeal Cert.KernelIdeal.Gen

/-- The zero block holds the number zero. -/
theorem zero_apply : k0_pay1 (F := Ideal) (ix2 (0 : Fin 1) (0 : Fin 1)) = 0 := by
  unfold k0_pay1
  simp only [shapeCast_self]
  exact Ideal.ofBits_zero_f32

/-- The update at its entry: `a + Σₛ x(0,s) · x(0,s)`. -/
theorem step_apply (x : Vec Ideal S1x262144 .f32) (a : Vec Ideal S1x1 .f32) :
    k0_pay2 (F := Ideal) x a (ix2 (0 : Fin 1) (0 : Fin 1))
      = a (ix2 (0 : Fin 1) (0 : Fin 1)) + ∑ s : Fin 262144, x (ix2 (0 : Fin 1) s) * x (ix2 (0 : Fin 1) s) := by
  unfold k0_pay2
  simp only [shapeCast_self]
  refine congrArg (a (ix2 (0 : Fin 1) (0 : Fin 1)) + ·) ?_
  refine (shapeCast_apply _ shapeCasts_S1_S1x1 (ix2 (0 : Fin 1) (0 : Fin 1)) (ix1 (0 : Fin 1)) rfl).trans ?_
  exact Cert.LibRows.rowSum_apply (m := 1) (n := 262144) (mulf x x) _ _ _ _ (0 : Fin 1)

end Cert.KernelIdeal.PairStep

end
-- ==== Proof.LibBlockAcc.lean ====
import Mathlib.Data.EReal.Basic
import Mathlib.Algebra.BigOperators.Fin
import Mathlib.Algebra.BigOperators.Group.Finset.Sigma
import Mathlib.Logic.Equiv.Fin.Basic

/-!
# A blocked running sum is the whole sum

A contracted axis of `P * L` positions is walked in `P` blocks of `L` positions each; position
`d` of block `k` is index `d + L * k` (the value of `finProdFinEquiv (k, d)`).  An accumulator
starts, at block `0`, from `0` plus the sum over that block, and at each later block adds the
sum over that block to what it holds.  After the last block it holds the sum over the whole
axis.

Two facts make this up.  First, by induction on the block number, the accumulator after block
`j` holds the sum of the block sums of blocks `0, …, j`.  Second, the sum over the whole axis is
the sum over blocks of the sums within blocks: the sum over a product type is an iterated sum,
and `finProdFinEquiv` is a bijection between pairs (block, position) and indices.  Only that
addition is commutative and associative with `0 + x = x` is used, so the statements hold in
any commutative additive monoid, the extended reals among them (no finiteness is needed).
-/

namespace Cert.BlockAcc

open scoped BigOperators

/-- Position `d` of block `k` is index `d + L * k`. -/
theorem tile_val {P L : ℕ} (k : Fin P) (d : Fin L) :
    (finProdFinEquiv (k, d) : Fin (P * L)).val = d.val + L * k.val := rfl

/-- The sum over the whole axis, block by block. -/
theorem sum_tiles {M : Type*} [AddCommMonoid M] {P L : ℕ} (f : Fin (P * L) → M) :
    ∑ c : Fin (P * L), f c = ∑ k : Fin P, ∑ d : Fin L, f (finProdFinEquiv (k, d)) := by
  rw [← Fintype.sum_prod_type']
  exact (Fintype.sum_equiv finProdFinEquiv (fun p => f (finProdFinEquiv p)) f (fun _ => rfl)).symm

/-- The accumulator after block `j` holds the block sums of blocks `0, …, j`. -/
theorem acc_partial {M : Type*} [AddCommMonoid M] {P : ℕ} (hP : 0 < P) (g : Fin P → M) (a : ℕ → M)
    (h0 : a 0 = 0 + g ⟨0, hP⟩)
    (hs : ∀ j (hj : j + 1 < P), a (j + 1) = a j + g ⟨j + 1, hj⟩) :
    ∀ j (hj : j < P), a j = ∑ k ∈ Finset.univ.filter (fun k : Fin P => k.val ≤ j), g k := by
  intro j
  induction j with
  | zero =>
    intro hj
    have hset : Finset.univ.filter (fun k : Fin P => k.val ≤ 0) = {⟨0, hP⟩} := by
      ext k
      simp only [Finset.mem_filter, Finset.mem_univ, true_and, Finset.mem_singleton, Fin.ext_iff]
      omega
    rw [h0, zero_add, hset, Finset.sum_singleton]
  | succ j ih =>
    intro hj
    have hset : Finset.univ.filter (fun k : Fin P => k.val ≤ j + 1)
        = insert ⟨j + 1, hj⟩ (Finset.univ.filter (fun k : Fin P => k.val ≤ j)) := by
      ext k
      simp only [Finset.mem_filter, Finset.mem_univ, true_and, Finset.mem_insert, Fin.ext_iff]
      omega
    have hnot : (⟨j + 1, hj⟩ : Fin P) ∉ Finset.univ.filter (fun k : Fin P => k.val ≤ j) := by
      simp
    rw [hs j hj, ih (by omega), hset, Finset.sum_insert hnot, add_comm]

/-- After the last block the accumulator holds the sum of all block sums. -/
theorem acc_blocks {M : Type*} [AddCommMonoid M] {P : ℕ} (hP : 0 < P) (g : Fin P → M) (a : ℕ → M)
    (h0 : a 0 = 0 + g ⟨0, hP⟩)
    (hs : ∀ j (hj : j + 1 < P), a (j + 1) = a j + g ⟨j + 1, hj⟩) :
    a (P - 1) = ∑ k : Fin P, g k := by
  rw [acc_partial hP g a h0 hs (P - 1) (by omega)]
  refine Finset.sum_congr ?_ (fun _ _ => rfl)
  ext k
  simp only [Finset.mem_filter, Finset.mem_univ, true_and, iff_true]
  have := k.isLt
  omega

/-- The accumulator law: after the last block the accumulator holds the sum over the whole axis. -/
theorem acc_eq_sum {P L : ℕ} (hP : 0 < P) (f : Fin (P * L) → EReal) (a : ℕ → EReal)
    (h0 : a 0 = 0 + ∑ d : Fin L, f (finProdFinEquiv ((⟨0, hP⟩ : Fin P), d)))
    (hs : ∀ j (hj : j + 1 < P),
      a (j + 1) = a j + ∑ d : Fin L, f (finProdFinEquiv ((⟨j + 1, hj⟩ : Fin P), d))) :
    a (P - 1) = ∑ k : Fin (P * L), f k := by
  rw [sum_tiles f]
  exact acc_blocks hP (fun k => ∑ d : Fin L, f (finProdFinEquiv (k, d))) a h0 hs

/-- The same law in any commutative additive monoid. -/
theorem acc_eq_sum' {M : Type*} [AddCommMonoid M] {P L : ℕ} (hP : 0 < P) (f : Fin (P * L) → M) (a : ℕ → M)
    (h0 : a 0 = 0 + ∑ d : Fin L, f (finProdFinEquiv ((⟨0, hP⟩ : Fin P), d)))
    (hs : ∀ j (hj : j + 1 < P),
      a (j + 1) = a j + ∑ d : Fin L, f (finProdFinEquiv ((⟨j + 1, hj⟩ : Fin P), d))) :
    a (P - 1) = ∑ k : Fin (P * L), f k := by
  rw [sum_tiles f]
  exact acc_blocks hP (fun k => ∑ d : Fin L, f (finProdFinEquiv (k, d))) a h0 hs

/-- The accumulator law at every index of a family: the two recursions hold at each `i`, so does
    the conclusion. -/
theorem acc_eq_sum_pointwise {ι : Type*} {P L : ℕ} (hP : 0 < P) (F : ι → Fin (P * L) → EReal)
    (A : ℕ → ι → EReal)
    (h0 : ∀ i, A 0 i = 0 + ∑ d : Fin L, F i (finProdFinEquiv ((⟨0, hP⟩ : Fin P), d)))
    (hs : ∀ i j (hj : j + 1 < P),
      A (j + 1) i = A j i + ∑ d : Fin L, F i (finProdFinEquiv ((⟨j + 1, hj⟩ : Fin P), d))) :
    ∀ i, A (P - 1) i = ∑ k : Fin (P * L), F i k :=
  fun i => acc_eq_sum hP (F i) (fun j => A j i) (h0 i) (hs i)

end Cert.BlockAcc
-- ==== Proof.Total.lean ====
/-
  The running total after the last point is the sum of all the squared residuals.

  Block `t` contributes the sum of the squares of its 262144 residuals; the total starts at `0 + ` block 0's sum and
  grows by each later block's sum. Position `d` of block `k` is pair `d + 262144 · k`, a bijection between
  (block, position) and the 4194304 pairs, and addition of extended reals is commutative and associative, so after
  the sixteenth block the total is the sum over all pairs.
-/
import proofs.«116029_j83056077570644_2_alg».proof.Proof.Row
import proofs.«116029_j83056077570644_2_alg».proof.Proof.Body
import proofs.«116029_j83056077570644_2_alg».proof.Proof.Step
import proofs.«116029_j83056077570644_2_alg».proof.Proof.LibBlockAcc

noncomputable section

open Idealize.ShloMosaic Idealize.ShloMosaic.TcCoe Idealize.SL.Sem Idealize.ShloMosaic.ValueIdx

namespace Cert.KernelIdeal.PairTotal

open Cert.KernelIdeal Cert.KernelIdeal.Gen Cert.KernelIdeal.PairBody Cert.KernelIdeal.PairStep Cert.KernelIdeal.PairRow Cert.PairLoss

variable (m : (ℓ : Loc nD τ sig) → Buf (Elt Ideal) ℓ)

theorem pairs_eq : 16 * 262144 = 4194304 := by decide

/-- The squared residual at position `k` of the row, the positions counted as 16 blocks of 262144. -/
def sqAt (c : Dev nD) (k : Fin (16 * 262144)) : EReal :=
  resVec m c (ix1 (Fin.cast pairs_eq k)) * resVec m c (ix1 (Fin.cast pairs_eq k))

/-- The sum of the squares of block `t`. -/
theorem block_sum (c : Dev nD) (t : Fin cfg0.N) (t' : Fin 16) (ht : t'.val = t.val) :
    ∑ s : Fin 262144, blockAt m c t (ix2 (0 : Fin 1) s) * blockAt m c t (ix2 (0 : Fin 1) s)
      = ∑ d : Fin 262144, sqAt m c (finProdFinEquiv (t', d)) :=
  Finset.sum_congr rfl fun s _ => by
    have e : blockAt m c t (ix2 (0 : Fin 1) s) = resVec m c (ix1 (Fin.cast pairs_eq (finProdFinEquiv (t', s)))) :=
      block_apply m c t s (Fin.cast pairs_eq (finProdFinEquiv (t', s)))
        (by show (finProdFinEquiv (t', s) : Fin (16 * 262144)).val = _; rw [Cert.BlockAcc.tile_val, ht])
    rw [e]
    rfl

/-- The running total's one entry after point `j` (zero past the grid). -/
def totalAt (c : Dev nD) (j : ℕ) : EReal :=
  if h : j < cfg0.N then total m c j h (ix2 (0 : Fin 1) (0 : Fin 1)) else 0

theorem totalAt_zero (c : Dev nD) :
    totalAt m c 0 = 0 + ∑ d : Fin 262144, sqAt m c (finProdFinEquiv ((⟨0, by decide⟩ : Fin 16), d)) := by
  have hN : cfg0.N = 16 := N_0
  unfold totalAt
  rw [dif_pos (by omega), total_zero]
  refine (step_apply _ _).trans ?_
  rw [show (zero (F := Ideal)) (ix2 (0 : Fin 1) (0 : Fin 1)) = 0 from zero_apply]
  exact congrArg (0 + ·) (block_sum m c ⟨0, _⟩ ⟨0, by decide⟩ rfl)

theorem totalAt_succ (c : Dev nD) (j : ℕ) (hj : j + 1 < 16) :
    totalAt m c (j + 1) = totalAt m c j + ∑ d : Fin 262144, sqAt m c (finProdFinEquiv ((⟨j + 1, hj⟩ : Fin 16), d)) := by
  have hN : cfg0.N = 16 := N_0
  unfold totalAt
  rw [dif_pos (by omega), dif_pos (by omega), total_succ]
  refine (step_apply _ _).trans ?_
  exact congrArg (_ + ·) (block_sum m c ⟨j + 1, _⟩ ⟨j + 1, hj⟩ rfl)

/-- After the last point the total is the sum of all 4194304 squared residuals. -/
theorem total_last (c : Dev nD) (h : 15 < cfg0.N) :
    total m c 15 h (ix2 (0 : Fin 1) (0 : Fin 1)) = ∑ k : Fin 4194304, resVec m c (ix1 k) * resVec m c (ix1 k) := by
  have key : totalAt m c (16 - 1) = ∑ k : Fin (16 * 262144), sqAt m c k :=
    Cert.BlockAcc.acc_eq_sum (P := 16) (L := 262144) (by decide) (sqAt m c) (totalAt m c) (totalAt_zero m c) (totalAt_succ m c)
  have e : totalAt m c (16 - 1) = total m c 15 h (ix2 (0 : Fin 1) (0 : Fin 1)) := dif_pos h
  rw [← e, key]
  exact Fintype.sum_equiv (finCongr pairs_eq) _ _ (fun k => rfl)

end Cert.KernelIdeal.PairTotal

end
-- ==== Proof.Out.lean ====
/-
  From the running total to the program's result.

  The output window is one entry wide and never moves; the pipeline writes it back once, after the last point, when
  the output block holds the running total. So the output array ends at the total after point 15, and the two host
  lines after the region turn that one entry into the result: reshaped to a scalar and divided by 2²².
-/
import proofs.«116029_j83056077570644_2_alg».proof.Proof.Body
import Idealize.ShloMosaic.Lib.Pipeline.Value
import Idealize.ShloMosaic.Lib.StableHlo.Run
import Idealize.ShloMosaic.Lib.Tactic
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.PairOut

open Cert.KernelIdeal Cert.KernelIdeal.Gen Cert.KernelIdeal.PairBody

variable {F : FTy → Type} [FloatOps F]
variable (m : (ℓ : Loc nD τ sig) → Buf (Elt F) ℓ) (ρ : Dev nD → PrngReg)

theorem lastLt : 15 < cfg0.N := by rw [show cfg0.N = 16 from N_0]; decide

/-- The output block never moves: it is the whole one-entry array at every point. -/
theorem outIdx : ∀ (t : Fin cfg0.N) (a : Fin 2), win0_1.index t a = 0 :=
  (by decide +kernel : ∀ (t : Fin grid0.N) (a : Fin 2), win0_1.index t a = 0)

/-- The one write-back, after the last point, writes the running total over the whole output array. -/
theorem flushed_total (c : Dev nD) (t : Fin cfg0.N) (hf : (cfg0.win 1).flush t = true) :
    (dats m 0 c).flushed 1 t = ((cfg0.win 1).blk t).view.read (Elt F) (total m c 15 lastLt : Buf (Elt F) ((c : Thread nD τ).loc main_v32)) := by
  have hN : cfg0.N = 16 := N_0
  have ht : t.val = 15 := by have := (flush0_1 t).mp hf; have := t.isLt; omega
  obtain ⟨n, hn⟩ := t
  dsimp only at ht
  subst ht
  show (cfg0.win 1).cut (grid0.coords ⟨15, hn⟩) ((dats m 0 c).after 1 ⟨15, hn⟩) = _
  rw [after0_1, out_eq m c 15 hn rfl]
  have hoff : (fun a => win0_1.index ⟨15, hn⟩ a * main_v32.ty.shape.size a) = fun _ => 0 :=
    funext fun a => by rw [outIdx ⟨15, hn⟩ a, Nat.zero_mul]
  exact (Memref.read_access_unit_zero (Elt F) main_v32 hoff (fun a => by rw [congrFun hoff a, Nat.zero_add]) (total m c 15 lastLt)).symm

/-- So the output array ends holding the running total after the last point. -/
theorem final_total (c : Dev nD) : (dats m 0 c).arrAt 1 cfg0.N = total m c 15 lastLt :=
  (dats m 0 c).arrAt_eq_of_cover 1 (total m c 15 lastLt) (flushed_total m c) fun i =>
    ⟨⟨15, lastLt⟩, (flush0_1 ⟨15, lastLt⟩).mpr rfl, by
      show i ∈ ((View.whole main_v32).slice (win0_1.rect ⟨15, lastLt⟩)).set
      rw [View.set_slice_whole, Rect.mem_set_unit]
      intro a
      have hi : (i a : Nat) < 1 := by
        match a with
        | ⟨0, _⟩ => exact (i 0).isLt
        | ⟨1, _⟩ => exact (i 1).isLt
      show win0_1.index ⟨15, lastLt⟩ a * win0_1.size a ≤ (i a : Nat) ∧ (i a : Nat) < win0_1.index ⟨15, lastLt⟩ a * win0_1.size a + win0_1.xsize (grid0.coords ⟨15, lastLt⟩) a
      rw [outIdx ⟨15, lastLt⟩ a, Nat.zero_mul, Nat.zero_add]
      have hx : win0_1.xsize (grid0.coords ⟨15, lastLt⟩) a = 1 := by
        match a with
        | ⟨0, _⟩ => rfl
        | ⟨1, _⟩ => rfl
      rw [hx]; omega⟩

/-- The host lines after the region: the one-entry array reshaped to a scalar and divided by 2²². -/
theorem tail_eq (c : Dev nD) :
    Pipeline.afterTail₀ cfgs (dats m) 0 (V0 m) [hostOps1] c main_v34
      = Host.divf (shapeCast S_ ((dats m 0 c).arrAt 1 cfg0.N : S1x1.Idx → Elt F .f32) shapeCasts_S1x1_S_) (constant S_ .f32 0x4A800000#32) := by
  unfold Pipeline.afterTail₀
  show StableHlo.after hostOps1 _ (Proc.devRef .tc main_v34) = _
  after_results
  have e : Pipeline.withArrays (cfgs 0).spec c (V0 m c) (fun w => (dats m 0 c).arrAt w (cfgs 0).N) (Proc.devRef .tc main_v32)
      = (dats m 0 c).arrAt 1 cfg0.N :=
    Pipeline.withArrays_arr spec0 launch0.win.arr_inj c (V0 m c) (fun w => (dats m 0 c).arrAt w cfg0.N) 1
  rw [e]
  rfl

end Cert.KernelIdeal.PairOut

end
-- ==== Proof.Loss.lean ====
/-
  The loss: the mean of the squared residuals, `(Σₖ rₖ · rₖ) / 2²²` over the 4194304 sampled pairs, and the closing
  steps of the program that computes it in one sum (square, sum from the zero word over every pair, divide).
-/
import proofs.«116029_j83056077570644_2_alg».proof.Proof.ResidualDefs

noncomputable section

namespace Cert.PairLoss

open Idealize.ShloMosaic Idealize.ShloMosaic.ValueIdx

/-- The mean squared residual of a residual vector, as a one-entry array. -/
def loss (r : FVec Ideal SP .f32) : S0.Idx → EReal := fun _ =>
  FloatOps.hostDivf (F := Ideal) (φ := .f32) (∑ k : Fin 4194304, r (ix1 k) * r (ix1 k)) (Ideal.ofBits .f32 0x4A800000#32)

/-- A sum over the indices of a one-axis array is the sum over its positions. -/
theorem sum_idx1 {n : ℕ} (f : (⟨1, ![n]⟩ : Shape).Idx → EReal) : ∑ j : (⟨1, ![n]⟩ : Shape).Idx, f j = ∑ k : Fin n, f (ix1 k) :=
  (Fintype.sum_equiv (⟨ix1, fun j => j 0, fun _ => rfl, fun j => (eq_ix1 j).symm⟩ : Fin n ≃ (⟨1, ![n]⟩ : Shape).Idx)
    (fun k => f (ix1 k)) f (fun _ => rfl)).symm

/-- Squaring the residuals, summing them all from the zero word and dividing is the loss. -/
theorem closing_eq (r : FVec Ideal SP .f32) (hR : SP.ReducesTo [0] S0) (h0 : 0 < S0.numel) :
    Host.divf (Host.reduceAdd (F := Ideal) (mulf r r) (constant (F := Ideal) S0 .f32 0x00000000#32) hR h0)
      (constant (F := Ideal) S0 .f32 0x4A800000#32) = loss r := by
  funext i
  show FloatOps.hostDivf (F := Ideal) (φ := .f32) (Host.reduceAdd (F := Ideal) (mulf r r) (constant (F := Ideal) S0 .f32 0x00000000#32) hR h0 i) (Ideal.ofBits .f32 0x4A800000#32) = _
  unfold loss
  refine congrArg (fun z => FloatOps.hostDivf (F := Ideal) (φ := .f32) z (Ideal.ofBits .f32 0x4A800000#32)) ?_
  simp only [Host.reduceAdd, Ideal.hostReduceAdd_def]
  rw [Ideal.hostReduceAdd_total hR (fun b => b.elim0) (mulf r r) _ i, sum_idx1]
  show Ideal.ofBits .f32 0x00000000#32 + _ = _
  rw [Ideal.ofBits_zero_f32, zero_add]
  rfl

end Cert.PairLoss

end
-- ==== Proof.KernelRun.lean ====
/-
  The kernel's program, run: its result is the loss of the residual vector its host lines compute, and its arguments
  end unchanged.
-/
import proofs.«116029_j83056077570644_2_alg».proof.Proof.Total
import proofs.«116029_j83056077570644_2_alg».proof.Proof.Out
import proofs.«116029_j83056077570644_2_alg».proof.Proof.Loss

noncomputable section

open Idealize.ShloMosaic Idealize.ShloMosaic.TcCoe Idealize.SL.Sem Idealize.ShloMosaic.ValueIdx

namespace Cert.KernelIdeal.PairRun

open Cert.KernelIdeal Cert.KernelIdeal.Gen Cert.KernelIdeal.PairBody Cert.KernelIdeal.PairRow Cert.KernelIdeal.PairTotal
  Cert.KernelIdeal.PairOut Cert.PairLoss

variable (m : (ℓ : Loc nD τ sig) → Buf (Elt Ideal) ℓ) (ρ : Dev nD → PrngReg)

/-- The result of the host lines after the region: the total after the last point, which is the sum of all squared
    residuals, divided by 2²². -/
theorem result_eq (c : Dev nD) :
    Pipeline.afterTail₀ cfgs (dats m) 0 (V0 m) [hostOps1] c main_v34 = loss (resVec m c) := by
  rw [tail_eq, final_total]
  funext i
  show FloatOps.hostDivf (F := Ideal) (φ := .f32)
    (shapeCast S_ (total m c 15 lastLt : S1x1.Idx → EReal) shapeCasts_S1x1_S_ i) (Ideal.ofBits .f32 0x4A800000#32) = _
  unfold loss
  refine congrArg (fun z => FloatOps.hostDivf (F := Ideal) (φ := .f32) z (Ideal.ofBits .f32 0x4A800000#32)) ?_
  refine (shapeCast_apply _ shapeCasts_S1x1_S_ i (ix2 (0 : Fin 1) (0 : Fin 1)) rfl).trans ?_
  exact total_last m c lastLt

/-- Every weakly fair execution of the kernel's program terminates with its result at the loss of the residual vector
    and its five arguments unchanged. -/
theorem run : θ_run defs (onTc (τ := τ) (main (F := Ideal))) ⟨m, fun _ => 0, ρ⟩ (fun r => ∀ c : Dev nD,
      r.2.mem ((c.tc : Thread nD τ).loc main_v34) = loss (resVec m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v34 (Pipeline.mem_restRefs_of main_v34 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.PairRun

end
-- ==== Proof.RefValue.lean ====
/-
  What the reference program computes: the loss of its residual vector.

  The reference takes the same tables of middle points, gathers a row for the left and for the right residue of every
  pair, and computes each pair's residual from the row differences; it then squares, sums over all pairs from the
  zero word and divides by 2²².
-/
import proofs.«116029_j83056077570644_2_alg».proof.Proof.Gen.ReferenceIdeal.Run
import proofs.«116029_j83056077570644_2_alg».proof.Proof.ResidualDefs
import proofs.«116029_j83056077570644_2_alg».proof.Proof.Loss

noncomputable section

open Idealize.ShloMosaic Idealize.ShloMosaic.TcCoe Idealize.SL.Sem Idealize.ShloMosaic.ValueIdx

namespace Cert.ReferenceIdeal.PairRef

open Cert.ReferenceIdeal Cert.ReferenceIdeal.Gen Cert.PairLoss Cert.LibRowGather

variable (m : (ℓ : Loc nD τ sig) → Buf (Elt Ideal) ℓ)

/-- The table of middle points of an argument array `[N, 3, 3]`: row `n` holds the point `x[n, 1, ·]`. -/
abbrev table (x : S262144x3x3.Idx → EReal) : FVec Ideal SN3 .f32 :=
  shapeCast S262144x3 (extractStridedSlice S262144x1x3 ![0, 1, 0] x slices_S262144x3x3_S262144x1x3_0_1_0) shapeCasts_S262144x1x3_S262144x3

/-- The column of start words of an index array: a negative word is raised by `N` first. -/
abbrev words (i : IVec S4194304 32) : IVec SP1 32 :=
  broadcastInDim S4194304x1 ![0] bcast_S4194304_S4194304x1_0
    (select (cmpi .slt i (broadcastInDim S4194304 ![] bcast_S_S4194304 (constantI S_ 32 0#32)))
      (addi i (broadcastInDim S4194304 ![] bcast_S_S4194304 (constantI S_ 32 262144#32))) i)

/-- The residual vector the reference computes. -/
def resVec (c : Dev nD) : FVec Ideal SP .f32 :=
  rRes (table (m ((c.tc : Thread nD τ).loc main_arg0))) (table (m ((c.tc : Thread nD τ).loc main_arg1)))
    (words (m ((c.tc : Thread nD τ).loc main_arg3))) (words (m ((c.tc : Thread nD τ).loc main_arg4)))
    gather_S262144x3_S4194304x1_S4194304x3_1_0_n_n_0_1_13_wf reducesTo_S4194304x3_S4194304_d1 h_S_

/-- The reference's result is the loss of its residual vector. -/
theorem result_eq (c : Dev nD) : Cert.ReferenceIdeal.Value.res_main_v39 m c = loss (resVec m c) := by
  refine Eq.trans ?_ (closing_eq (resVec m c) reducesTo_S4194304_S_d0 h_S_)
  unfold Cert.ReferenceIdeal.Value.res_main_v39
  rfl

end Cert.ReferenceIdeal.PairRef

end
-- ==== Proof.Residual.lean ====
/-
  The two residual vectors, entry by entry: each entry is the residual of the pair of rows its two start words name.
-/
import proofs.«116029_j83056077570644_2_alg».proof.Proof.ResidualDefs

noncomputable section

namespace Cert.PairLoss

open Idealize.ShloMosaic Idealize.ShloMosaic.ValueIdx Cert.LibRowGather

/-- The column gather read at `(r, p)`: entry `r` of the column of the array named by the start word of position `p`. -/
theorem colGather_apply {α : Type} {w : ℕ} (hG : GatherDims.WF S6N SP1 S6P [0] [1] [] [1] [] 1 ![6, 1])
    (T : S6N.Idx → α) (idx : IVec SP1 w) (r : Fin 6) (p : Fin 4194304) :
    Host.gather (colDims hG) T idx (ix2 r p) = T (ix2 r (rowOf 262144 (by decide) (idx (ix2 p (0 : Fin 1))))) := by
  unfold Host.gather
  congr 1
  funext a
  refine Fin.ext ?_
  show (colDims hG).start (ix2 r p) idx a + (colDims hG).batchCoord (ix2 r p) a
    + (colDims hG).offCoord (ix2 r p) a = _
  rw [GatherDims.batchCoord_eq_zero _ _ _ List.not_mem_nil]
  rcases two_cases a with rfl | rfl
  · have hs : (0 : Fin 2) ∉ (colDims hG).startIndexMap := (by decide : (0 : Fin 2) ∉ ([1] : List (Fin 2)))
    have hk : (0 : Fin 2) ∈ (colDims hG).sKept :=
      (by decide : (0 : Fin 2) ∈ (List.finRange 2).filter (· ∉ ([1] : List (Fin 2)) ++ []))
    unfold GatherDims.start
    rw [dif_neg hs]
    unfold GatherDims.offCoord
    rw [dif_pos hk]
    show 0 + 0 + r.val = r.val
    omega
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims hG).startIndexMap from List.mem_singleton.mpr rfl)]
    have hsi : (colDims hG).siIdx (ix2 r p) ⟨List.idxOf (1 : Fin 2) (colDims hG).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

/-- The sum down the rows of a `[3, P]` array from the zero word, read at `p`. -/
theorem sumRows_apply (y : FVec Ideal S3P .f32) (hR : S3P.ReducesTo [0] SP) (h0 : 0 < S0.numel) (p : Fin 4194304) :
    Host.reduceAdd (F := Ideal) y (constant (F := Ideal) S0 .f32 0x00000000#32) hR h0 (ix1 p)
      = Ideal.ofBits .f32 0x00000000#32 + ∑ d : Fin 3, y (ix2 d p) := by
  simp only [Host.reduceAdd, Ideal.hostReduceAdd_def]
  rw [Ideal.hostReduceAdd_single hR (by decide)]
  refine congrArg (_ + ·) (Finset.sum_congr rfl fun k _ => ?_)
  exact congrArg y (funext fun a => Fin.ext (by match a with | ⟨0, _⟩ => rfl | ⟨1, _⟩ => rfl))

/-- The sum along the rows of a `[P, 3]` array from the zero word, read at `p`. -/
theorem sumCols_apply (y : FVec Ideal SP3 .f32) (hR : SP3.ReducesTo [1] SP) (h0 : 0 < S0.numel) (p : Fin 4194304) :
    Host.reduceAdd (F := Ideal) y (constant (F := Ideal) S0 .f32 0x00000000#32) hR h0 (ix1 p)
      = Ideal.ofBits .f32 0x00000000#32 + ∑ d : Fin 3, y (ix2 p d) := by
  simp only [Host.reduceAdd, Ideal.hostReduceAdd_def]
  rw [Ideal.hostReduceAdd_single hR (by decide)]
  refine congrArg (_ + ·) (Finset.sum_congr rfl fun k _ => ?_)
  exact congrArg y (funext fun a => Fin.ext (by match a with | ⟨0, _⟩ => rfl | ⟨1, _⟩ => rfl))

/-- Two `[3, N]` arrays stacked along the rows: rows `0..2` of the stack are the first array's rows. -/
theorem stack_upper {α : Type} (A B : S3N.Idx → α) (hC : Shape.Concatenates [S3N, S3N] S6N 0)
    (r : Fin 3) (n : Fin 262144) (k : Fin 6) (hk : k.val = r.val) :
    concatenate S6N 0 [⟨S3N, A⟩, ⟨S3N, B⟩] hC (ix2 k n) = A (ix2 r n) :=
  concatenate_pair_apply_left 0 A B hC (ix2 k n) rfl (ix2 r n) (fun b => by
    match b with
    | ⟨0, _⟩ => exact hk.symm
    | ⟨1, _⟩ => rfl)

/-- Rows `3..5` of the stack are the second array's rows. -/
theorem stack_lower {α : Type} (A B : S3N.Idx → α) (hC : Shape.Concatenates [S3N, S3N] S6N 0)
    (r : Fin 3) (n : Fin 262144) (k : Fin 6) (hk : k.val = 3 + r.val) :
    concatenate S6N 0 [⟨S3N, A⟩, ⟨S3N, B⟩] hC (ix2 k n) = B (ix2 r n) :=
  concatenate_pair_apply_right 0 A B hC (ix2 k n) rfl rfl (ix2 r n) (fun b hb => by
    match b, hb with
    | ⟨0, _⟩, hb => exact absurd rfl hb
    | ⟨1, _⟩, _ => rfl) (by show r.val + 3 = k.val; omega)

/-- The host square root of an array of extended reals, read at an index. -/
theorem hostSqrt_apply {s : Shape} (x : FVec Ideal s .f32) (i : s.Idx) : Host.sqrt x i = Ideal.sqrt (x i) := rfl

/-- One distance of the first program: three consecutive rows `o, o+1, o+2` of the stacked array hold the
    transposed table `A`; the gathered columns' difference, cut to those rows, squared and summed down the rows,
    is the sum over the three coordinates of the squared coordinate difference of the two named rows of `A`. -/
theorem colDist_apply (T : FVec Ideal S6N .f32) (A : FVec Ideal SN3 .f32) (IL IR : IVec SP1 32) (o : ℕ)
    (hA : ∀ (d : Fin 3) (n : Fin 262144) (k : Fin 6), k.val = o + d.val → T (ix2 k n) = A (ix2 n d))
    (ho : o + 3 ≤ 6)
    (hG : GatherDims.WF S6N SP1 S6P [0] [1] [] [1] [] 1 ![6, 1])
    (hS : S6P.Slices ![o, 0] S3P) (hR : S3P.ReducesTo [0] SP) (h0 : 0 < S0.numel) (p : Fin 4194304) :
    Host.sqrt (Host.reduceAdd (F := Ideal)
        (mulf (extractStridedSlice S3P ![o, 0] (subf (Host.gather (colDims hG) T IL) (Host.gather (colDims hG) T IR)) hS)
          (extractStridedSlice S3P ![o, 0] (subf (Host.gather (colDims hG) T IL) (Host.gather (colDims hG) T IR)) hS))
        (constant (F := Ideal) S0 .f32 0x00000000#32) hR h0) (ix1 p)
      = Ideal.sqrt (Ideal.ofBits .f32 0x00000000#32
          + ∑ d : Fin 3, (A (ix2 (rowOf 262144 (by decide) (IL (ix2 p (0 : Fin 1)))) d)
                - A (ix2 (rowOf 262144 (by decide) (IR (ix2 p (0 : Fin 1)))) d))
              * (A (ix2 (rowOf 262144 (by decide) (IL (ix2 p (0 : Fin 1)))) d)
                - A (ix2 (rowOf 262144 (by decide) (IR (ix2 p (0 : Fin 1)))) d))) := by
  refine (hostSqrt_apply _ _).trans (congrArg Ideal.sqrt ?_)
  refine (sumRows_apply _ hR h0 p).trans ?_
  refine congrArg (_ + ·) (Finset.sum_congr rfl fun d _ => ?_)
  have hU : extractStridedSlice S3P ![o, 0] (subf (Host.gather (colDims hG) T IL) (Host.gather (colDims hG) T IR)) hS (ix2 d p)
      = A (ix2 (rowOf 262144 (by decide) (IL (ix2 p (0 : Fin 1)))) d)
        - A (ix2 (rowOf 262144 (by decide) (IR (ix2 p (0 : Fin 1)))) d) := by
    refine (slice2_axis0_apply o _ hS d p ⟨o + d.val, by omega⟩ rfl).trans ?_
    refine (subf_apply _ _ _).trans ?_
    exact congrArg₂ (· - ·) ((colGather_apply hG T IL _ p).trans (hA d _ _ rfl))
      ((colGather_apply hG T IR _ p).trans (hA d _ _ rfl))
  exact (mulf_apply _ _ _).trans (congrArg₂ (· * ·) hU hU)

/-- One distance of the second program: the two gathered rows' difference, squared and summed along the row. -/
theorem rowDist_apply (A : FVec Ideal SN3 .f32) (IL IR : IVec SP1 32)
    (hG : GatherDims.WF SN3 SP1 SP3 [1] [0] [] [0] [] 1 ![1, 3]) (hR : SP3.ReducesTo [1] SP) (h0 : 0 < S0.numel)
    (p : Fin 4194304) :
    Host.sqrt (Host.reduceAdd (F := Ideal)
        (mulf (subf (Host.gather (rowDims 262144 3 4194304 hG) A IL) (Host.gather (rowDims 262144 3 4194304 hG) A IR))
          (subf (Host.gather (rowDims 262144 3 4194304 hG) A IL) (Host.gather (rowDims 262144 3 4194304 hG) A IR)))
        (constant (F := Ideal) S0 .f32 0x00000000#32) hR h0) (ix1 p)
      = Ideal.sqrt (Ideal.ofBits .f32 0x00000000#32
          + ∑ d : Fin 3, (A (ix2 (rowOf 262144 (by decide) (IL (ix2 p (0 : Fin 1)))) d)
                - A (ix2 (rowOf 262144 (by decide) (IR (ix2 p (0 : Fin 1)))) d))
              * (A (ix2 (rowOf 262144 (by decide) (IL (ix2 p (0 : Fin 1)))) d)
                - A (ix2 (rowOf 262144 (by decide) (IR (ix2 p (0 : Fin 1)))) d))) := by
  refine (hostSqrt_apply _ _).trans (congrArg Ideal.sqrt ?_)
  refine (sumCols_apply _ hR h0 p).trans ?_
  refine congrArg (_ + ·) (Finset.sum_congr rfl fun d _ => ?_)
  have hD : subf (Host.gather (rowDims 262144 3 4194304 hG) A IL) (Host.gather (rowDims 262144 3 4194304 hG) A IR) (ix2 p d)
      = A (ix2 (rowOf 262144 (by decide) (IL (ix2 p (0 : Fin 1)))) d)
        - A (ix2 (rowOf 262144 (by decide) (IR (ix2 p (0 : Fin 1)))) d) :=
    (subf_apply _ _ _).trans
      (congrArg₂ (· - ·) (rowGather_apply (by decide) hG A IL p d) (rowGather_apply (by decide) hG A IR p d))
  exact (mulf_apply _ _ _).trans (congrArg₂ (· * ·) hD hD)

/-- Entry `p` of the first program's residual vector is the residual of the pair of rows its two start words name. -/
theorem kRes_apply (X Y : FVec Ideal SN3 .f32) (IL IR : IVec SP1 32)
    (hT : SN3.Transposes [1, 0] S3N) (hC : Shape.Concatenates [S3N, S3N] S6N 0)
    (hG : GatherDims.WF S6N SP1 S6P [0] [1] [] [1] [] 1 ![6, 1])
    (hS0 : S6P.Slices ![0, 0] S3P) (hS3 : S6P.Slices ![3, 0] S3P) (hR : S3P.ReducesTo [0] SP) (h0 : 0 < S0.numel)
    (p : Fin 4194304) :
    kRes X Y IL IR hT hC hG hS0 hS3 hR h0 (ix1 p)
      = resAt X Y (rowOf 262144 (by decide) (IL (ix2 p (0 : Fin 1)))) (rowOf 262144 (by decide) (IR (ix2 p (0 : Fin 1)))) := by
  unfold kRes resAt
  exact (subf_apply _ _ _).trans (congrArg₂ (· - ·)
    (colDist_apply _ X IL IR 0 (fun d n k hk =>
      (stack_upper _ _ hC d n k (by omega)).trans (transpose_ix2_apply X hT d n)) (by omega) hG hS0 hR h0 p)
    (colDist_apply _ Y IL IR 3 (fun d n k hk =>
      (stack_lower _ _ hC d n k hk).trans (transpose_ix2_apply Y hT d n)) (by omega) hG hS3 hR h0 p))

/-- Entry `p` of the second program's residual vector is the same residual. -/
theorem rRes_apply (X Y : FVec Ideal SN3 .f32) (IL IR : IVec SP1 32)
    (hG : GatherDims.WF SN3 SP1 SP3 [1] [0] [] [0] [] 1 ![1, 3]) (hR : SP3.ReducesTo [1] SP) (h0 : 0 < S0.numel)
    (p : Fin 4194304) :
    rRes X Y IL IR hG hR h0 (ix1 p)
      = resAt X Y (rowOf 262144 (by decide) (IL (ix2 p (0 : Fin 1)))) (rowOf 262144 (by decide) (IR (ix2 p (0 : Fin 1)))) := by
  unfold rRes resAt
  exact (subf_apply _ _ _).trans
    (congrArg₂ (· - ·) (rowDist_apply X IL IR hG hR h0 p) (rowDist_apply Y IL IR hG hR h0 p))

end Cert.PairLoss

end
-- ==== Proof.lean ====
/-
  The certificate: a mean squared difference of pair distances, computed two ways.

  Both programs take, for each of two structures, the middle point of every residue (a table `[N, 3]`), and for each of
  the 4194304 sampled pairs of residues the residual `|Xₐ − X_b| − |Yₐ − Y_b|`; the result is the mean of the squared
  residuals. The kernel's program gathers columns of the two tables stacked transposed, and sums the squares in a
  pipelined region, 16 blocks of 262144, into a running total it divides by 2²² at the end; the reference gathers rows
  and sums all the squares at once. The residual vectors agree entry by entry (Residual.lean), the blocked running
  total is the whole sum because addition of extended reals is commutative and associative (Total.lean), and both
  programs divide the same sum by the same word. No finiteness of the inputs is used.

  The frames of the two kernel programs are the generated ones; the reference's frame is its generated run with the
  result dropped; the idealization rewrote nothing, so `preserves` is trivial.
-/
import proofs.«116029_j83056077570644_2_alg».proof.Defs
import proofs.«116029_j83056077570644_2_alg».proof.Proof.Gen.Kernel
import proofs.«116029_j83056077570644_2_alg».proof.Proof.Gen.Kernel.Frame
import proofs.«116029_j83056077570644_2_alg».proof.Proof.Gen.KernelIdeal
import proofs.«116029_j83056077570644_2_alg».proof.Proof.Gen.KernelIdeal.Frame
import proofs.«116029_j83056077570644_2_alg».proof.Proof.Gen.ReferenceIdeal
import proofs.«116029_j83056077570644_2_alg».proof.Proof.Gen.Pre_finite_inputs
import proofs.«116029_j83056077570644_2_alg».proof.Proof.Gen.ReferenceIdeal.Run
import proofs.«116029_j83056077570644_2_alg».proof.Proof.KernelRun
import proofs.«116029_j83056077570644_2_alg».proof.Proof.RefValue
import proofs.«116029_j83056077570644_2_alg».proof.Proof.Residual
import Idealize.ShloMosaic.Adequacy
import Idealize.ShloMosaic.Init

noncomputable section

namespace Cert.Proof

open Idealize.ShloMosaic Idealize.SL.Sem Idealize.ShloMosaic.ValueIdx Cert.PairLoss

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From arguments that agree, the two programs' residual vectors are equal: entry `p` of each is the residual of the
    pair of rows that the two start words of position `p` name. -/
theorem resVec_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.PairRef.resVec m' c = Cert.KernelIdeal.PairRow.resVec m c := by
  funext j
  obtain ⟨p, rfl⟩ : ∃ p : Fin 4194304, j = ix1 p := ⟨j 0, eq_ix1 j⟩
  unfold Cert.ReferenceIdeal.PairRef.resVec Cert.KernelIdeal.PairRow.resVec
  rw [rRes_apply, kRes_apply, h0, h1, h3, h4]

theorem preserves : Cert.preserves_Kernel_KernelIdeal := trivial

/-- The kernel's program ends at the loss of its residual vector, the reference at the loss of its own, and from
    arguments that agree the two residual vectors are one. -/
theorem algebraic : Cert.algebraic_KernelIdeal_ReferenceIdeal := by
  intro m ρ m' ρ' _ hagree
  refine ⟨fun c => loss (Cert.KernelIdeal.PairRow.resVec m c), Cert.KernelIdeal.PairRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.PairRef.result_eq,
    resVec_eq m m' c (hagree c).1 (hagree c).2.1 (hagree c).2.2.2.1 (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
